-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4096x256 .f32) (main_arg1 : FVec F S4096x4096 .f32) (main_arg2 : FVec F S256x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S4096x256 : Shape := ⟨2, ![4096, 256]⟩
abbrev S4096x4096 : Shape := ⟨2, ![4096, 4096]⟩
abbrev S256x256 : Shape := ⟨2, ![256, 256]⟩
abbrev S256x4096 : Shape := ⟨2, ![256, 4096]⟩
abbrev S512x256 : Shape := ⟨2, ![512, 256]⟩

abbrev nBuf : Space → Nat
  | .hbm => 4
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S4096x256, .f32⟩
  | .local _ .vmem, ⟨0, _⟩ => ⟨S4096x256, .f32⟩
  | .local _ .vmem, ⟨1, _⟩ => ⟨S256x256, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S512x256, .f32⟩
  | .local _ .vmem, ⟨7, _⟩ => ⟨S512x256, .f32⟩
  | .local _ .vmem, ⟨8, _⟩ => ⟨S4096x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S4096x256_S4096x256 : S4096x256.ShapeCasts S4096x256
  inb_S256x4096_S256x4096_0_0 : ∀ a, (![0, 0] : Fin 2 → Nat) a + S256x4096.size a ≤ S256x4096.size a
  h_S256x4096 : 0 < S256x4096.numel
  inb_S512x256_S256x256_0_0 : ∀ a, (![0, 0] : Fin 2 → Nat) a + S256x256.size a ≤ S512x256.size a
  inb_S512x256_S256x256_256_0 : ∀ a, (![256, 0] : Fin 2 → Nat) a + S256x256.size a ≤ S512x256.size a
  dot_S4096x256_S256x256_S4096x256_1_0_0_1_n_n_wf : DotDims.WF S4096x256 S256x256 S4096x256 [1] [0] [0] [1] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x256.size a
  hwx0_4 : ∀ i : grid0.Coords, EltTy.bits .f32 = 32 ∨ (Rect.block (s := S4096x256) S512x256.size (cc0_transform_4 i) (hinb0_4 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096x256, .f32⟩
  | .hbm, ⟨7, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S4096x256 : S_.BroadcastsInDim S4096x256 (![] : Fin 0 → Fin S4096x256.rank)
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.K.Base.lean ====
/-
  The run of `Kernel`'s one region, first part: the arrays as the region finds them, each window's block
  at a grid point, the branch condition of the body in closed form over the grid, and the body's staging
  and scratch memrefs. The grid has eight points; at point `t` the two windows on the adjacency array hold
  its row blocks `2t` and `2t + 1` (256 rows each), the output window holds rows `512 t … 512 t + 511`
  of the result, and the features and the weight are staged whole, once.
-/
import proofs.«146879_g4337916969110_retrytranche1_687_8_alg».proof.Proof.Gen.Kernel.Launch
import proofs.«146879_g4337916969110_retrytranche1_687_8_alg».proof.Proof.Gen.Kernel.Skeleton
import proofs.«146879_g4337916969110_retrytranche1_687_8_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The core's buffers when the region is entered: as launched (the program is the region alone). -/
abbrev V (c : Dev nD) (b : Ref sig .tc) : Buf (Elt F) ((c : Thread nD τ).loc b) := m ((c : Thread nD τ).loc b)

/-- The program reduces to its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, when the
    body leaves the block in place: the features, -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the weight, -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the even row block of the adjacency, -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- and the odd one. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body computes the support (features times weight) into its scratch exactly when the grid
    coordinate is zero. -/
abbrev isFirst (i : grid0.Coords) : Prop :=
  (Scalar.cmpi .ne (Scalar.extui (Scalar.cmpi .eq (BitVec.ofNat 32 (i 0).val) 0#32)) 0#32) = 1#1

/-- That is the first point of the grid and no other. -/
theorem isFirst_iff : ∀ t : Fin cfg0.N, isFirst (grid0.coords t) ↔ t.val = 0 :=
  (by decide +kernel : ∀ t : Fin grid0.N, isFirst (grid0.coords t) ↔ t.val = 0)

/-- No window is idle at any point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-! ## The memrefs the body is called with -/

abbrev ms0 (t : Fin cfg0.N) : Memref sig .tc .vmem S4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x256 .f32 := win0_4.stage (cfg0.slots t 4)
abbrev hs4 (t : Fin cfg0.N) : (ms4 t).IsWhole := hstage0_4 ((cfg0.slots t 4).cast nbuf0_4)
/-- The scratch that keeps the support from the first point on. -/
abbrev scM : Memref sig .tc .vmem S4096x256 .f32 := Memref.whole cc0_scratch0
/-- One staging buffer of the output window and the scratch as views, through which contents are stated. -/
abbrev VO : View sig .tc .vmem S512x256 .f32 := (Memref.whole cc0_stg4_0 : Memref sig .tc .vmem S512x256 .f32).view
abbrev VS : View sig .tc .vmem S4096x256 .f32 := scM.view

/-- The scoped buffers that are no staging buffer: the scratch, owned at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.K.RunFirst.lean ====
/-
  The body at the first grid point, run symbolically on whole memrefs: the features and the weight are
  loaded and their product stored over the whole scratch; then each adjacency row block is multiplied
  with the scratch as just written, clipped below at zero, and stored into its half of the output block.
  The pieces the stores leave in the output buffer and in the scratch are found by the run itself.
-/
import proofs.«146879_g4337916969110_retrytranche1_687_8_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output buffer (two stores, last first) and in the scratch (one store)
    at the first point, with the proof that it runs to a continuation holding the inputs as they were and
    the two written buffers with those pieces written. -/
noncomputable def runFirst (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : isFirst i)
    (x0 : Vec F S4096x256 .f32) (x1 : Vec F S256x256 .f32) (x2 : Vec F S256x4096 .f32) (x3 : Vec F S256x4096 .f32) :
    Σ' (L4 : List (View.Piece (Elt F) S512x256 .f32)), { LS : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__fused_gnn_kernel i arg1 harg1 arg2 harg2 arg3 harg3 arg4 harg4 arg5 harg5 arg6 harg6) K } := by
  refine ⟨?_, ?_, fun E K => ?run⟩
  case run =>
    simp only [cc0__fused_gnn_kernel_eq_skeleton]; unfold cc0__fused_gnn_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

end Cert.Kernel.Hand

end
-- ==== Proof.K.RunLater.lean ====
/-
  The body at every later grid point, run symbolically on whole memrefs: the branch is not taken, the
  scratch is only read — it holds what the first point stored —, and each adjacency row block is multiplied
  with it, clipped below at zero, and stored into its half of the output block.
-/
import proofs.«146879_g4337916969110_retrytranche1_687_8_alg».proof.Proof.K.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output buffer at a later point (two stores, last first), with the
    proof that it runs to a continuation holding the inputs and the scratch as they were and the output
    buffer with those pieces written. -/
noncomputable def runLater (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : ¬isFirst i)
    (x2 : Vec F S256x4096 .f32) (x3 : Vec F S256x4096 .f32) (xs : Vec F S4096x256 .f32) :
    { L4 : List (View.Piece (Elt F) S512x256 .f32) //
      ∀ (x0 : Vec F S4096x256 .f32) (x1 : Vec F S256x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__fused_gnn_kernel i arg1 harg1 arg2 harg2 arg3 harg3 arg4 harg4 arg5 harg5 arg6 harg6) K } := by
  refine ⟨?_, fun x0 x1 E K => ?run⟩
  case run =>
    simp only [cc0__fused_gnn_kernel_eq_skeleton]; unfold cc0__fused_gnn_kernel_skel
    unfold owns
    iintro ⟨H0, H1, ⟨%f2, %hf2, H2⟩, ⟨%f3, %hf3, H3⟩, ⟨%d4, %f4, -, H4⟩, ⟨%f5, %hf5, H5⟩, Hk⟩
    obtain rfl := harg3.eq_unread hf2; obtain rfl := harg4.eq_unread hf3; obtain rfl := harg6.eq_unread hf5
    sl_exec (disch := exact hc)
    sl_step
    iapply Hk
    isplitl [H0]; · iexact H0
    isplitl [H1]; · iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact H5

end Cert.Kernel.Hand

end
-- ==== Proof.LibFrameShared.lean ====
/-
  A frame run for a one-region pipeline whose windows may hand ONE array to several input windows.

  The region is entered from the class invariant (the scoped buffers that are no staging buffer, each at
  some contents), the certificate's own invariant `Φ` is tracked from point to point (what the body keeps
  in its scratch), and after the last point the scoped rest is given back. How the buffers behind the
  arrays, each whole at the full share, are dealt among the windows on them is the caller's (`hsplit`):
  an array read through two input windows is split into two half shares. The conclusion is the frame
  post: every window's array at what the proof data compute after the last write-back, every other
  unscoped buffer at its contents at the region's entry.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run with a tracked invariant, the windows' arrays not assumed distinct. -/
theorem θ_run_frame_track_shared
    (cfgs : P → Cfg sig Λ₀) (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) ⟨m, fun _ => 0, g⟩
      (FramePost cfgs dats p V) := by
  classical
  exact θ_run_region_noSem_shared cfgs dats () hinj p hw emb₁ defs₀ 𝒱₀ m g main hbody hne harr hstage howed
    (u₀ := Rounds.initOf (cells cfgs hinj) (launchToks cfgs hinj)) (hu₀ := BI.Entails.refl _)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr
      · iempintro
      · iexact H)
    (hin := fun c => (show _ ⊢ (scopedRest (cfgs p).spec c : sProp 𝕄) from by iintro ⟨-, H⟩; iexact H).trans (hin c))
    (hout := fun c => (hout c).trans (by
      iintro H
      isplitr
      · iempintro
      · iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.K.Frame.lean ====
/-
  The run of `Kernel`'s one region: what the scratch and the output buffer hold after each grid point, the
  proof data, the body at every point, and the launch.

  After the first point the scratch holds the support (the product of the features and the weight, as that
  point's run stored it) and no later point writes it; the output buffer after point `t` holds the two
  halves that point stored, each the clipped product of one adjacency row block with the scratch. The
  adjacency array is read through two input windows, so its buffer's full share is dealt between them, a
  half each; nothing writes it.
-/
import proofs.«146879_g4337916969110_retrytranche1_687_8_alg».proof.Proof.K.RunLater
import proofs.«146879_g4337916969110_retrytranche1_687_8_alg».proof.Proof.LibFrameShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two runs leave -/

/-- The first point's store into the scratch covers it. -/
theorem scoverFirst (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : isFirst i)
    (x0 : Vec F S4096x256 .f32) (x1 : Vec F S256x256 .f32) (x2 : Vec F S256x4096 .f32) (x3 : Vec F S256x4096 .f32) (y : S4096x256.Idx) :
    ∃ pc ∈ (runFirst c i arg1 harg1 arg2 harg2 arg3 harg3 arg4 harg4 arg5 harg5 arg6 harg6 hc x0 x1 x2 x3).2.1, y ∈ pc.1.set :=
  View.cover_of_tiledL (runFirst c i arg1 harg1 arg2 harg2 arg3 harg3 arg4 harg4 arg5 harg5 arg6 harg6 hc x0 x1 x2 x3).2.1 S4096x256.size (by sl_kernel_rfl) y

/-- What the first point leaves in the scratch: its piece read back. -/
def suppOf (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : isFirst i)
    (x0 : Vec F S4096x256 .f32) (x1 : Vec F S256x256 .f32) (x2 : Vec F S256x4096 .f32) (x3 : Vec F S256x4096 .f32) : Vec F S4096x256 .f32 :=
  VS.read (Elt F) (VS.writes (Elt F) VS.junk (runFirst c i arg1 harg1 arg2 harg2 arg3 harg3 arg4 harg4 arg5 harg5 arg6 harg6 hc x0 x1 x2 x3).2.1)

/-- The first point's two stores into the output buffer tile it. -/
theorem coverFirst (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : isFirst i)
    (x0 : Vec F S4096x256 .f32) (x1 : Vec F S256x256 .f32) (x2 : Vec F S256x4096 .f32) (x3 : Vec F S256x4096 .f32) (y : S512x256.Idx) :
    ∃ pc ∈ (runFirst c i arg1 harg1 arg2 harg2 arg3 harg3 arg4 harg4 arg5 harg5 arg6 harg6 hc x0 x1 x2 x3).1, y ∈ pc.1.set :=
  View.cover_of_tiledL (runFirst c i arg1 harg1 arg2 harg2 arg3 harg3 arg4 harg4 arg5 harg5 arg6 harg6 hc x0 x1 x2 x3).1 S256x256.size (by sl_kernel_rfl) y

/-- What the first point leaves in the output buffer. -/
def outFirst (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : isFirst i)
    (x0 : Vec F S4096x256 .f32) (x1 : Vec F S256x256 .f32) (x2 : Vec F S256x4096 .f32) (x3 : Vec F S256x4096 .f32) : Vec F S512x256 .f32 :=
  VO.read (Elt F) (VO.writes (Elt F) VO.junk (runFirst c i arg1 harg1 arg2 harg2 arg3 harg3 arg4 harg4 arg5 harg5 arg6 harg6 hc x0 x1 x2 x3).1)

/-- A later point's two stores into the output buffer tile it. -/
theorem coverLater (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : ¬isFirst i)
    (x2 : Vec F S256x4096 .f32) (x3 : Vec F S256x4096 .f32) (xs : Vec F S4096x256 .f32) (y : S512x256.Idx) :
    ∃ pc ∈ (runLater c i arg1 harg1 arg2 harg2 arg3 harg3 arg4 harg4 arg5 harg5 arg6 harg6 hc x2 x3 xs).1, y ∈ pc.1.set :=
  View.cover_of_tiledL (runLater c i arg1 harg1 arg2 harg2 arg3 harg3 arg4 harg4 arg5 harg5 arg6 harg6 hc x2 x3 xs).1 S256x256.size (by sl_kernel_rfl) y

/-- What a later point leaves in the output buffer. -/
def outLater (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : ¬isFirst i)
    (x2 : Vec F S256x4096 .f32) (x3 : Vec F S256x4096 .f32) (xs : Vec F S4096x256 .f32) : Vec F S512x256 .f32 :=
  VO.read (Elt F) (VO.writes (Elt F) VO.junk (runLater c i arg1 harg1 arg2 harg2 arg3 harg3 arg4 harg4 arg5 harg5 arg6 harg6 hc x2 x3 xs).1)

/-! ## Point by point -/

/-- The support: what the first point's run leaves in the scratch, at that point's memrefs and blocks. -/
def suppAt (c : Dev nD) : Vec F S4096x256 .f32 :=
  suppOf c (grid0.coords t0_0) (ms0 t0_0) (hs0 t0_0) (ms1 t0_0) (hs1 t0_0) (ms2 t0_0) (hs2 t0_0) (ms3 t0_0) (hs3 t0_0) (ms4 t0_0) (hs4 t0_0) scM (Memref.isWhole_whole _)
    ((isFirst_iff t0_0).mpr rfl) (iblk m c 0 t0_0) (iblk m c 1 t0_0) (iblk m c 2 t0_0) (iblk m c 3 t0_0)

/-- The output buffer after the body at point `t`: the first point's run at the first point, else a later
    point's run over the support. -/
def outAt (c : Dev nD) (t : Fin cfg0.N) : Vec F S512x256 .f32 :=
  if h : t.val = 0 then
    outFirst c (grid0.coords t) (ms0 t) (hs0 t) (ms1 t) (hs1 t) (ms2 t) (hs2 t) (ms3 t) (hs3 t) (ms4 t) (hs4 t) scM (Memref.isWhole_whole _)
      ((isFirst_iff t).mpr h) (iblk m c 0 t) (iblk m c 1 t) (iblk m c 2 t) (iblk m c 3 t)
  else
    outLater c (grid0.coords t) (ms0 t) (hs0 t) (ms1 t) (hs1 t) (ms2 t) (hs2 t) (ms3 t) (hs3 t) (ms4 t) (hs4 t) scM (Memref.isWhole_whole _)
      (fun hh => h ((isFirst_iff t).mp hh)) (iblk m c 2 t) (iblk m c 3 t) (suppAt m c)

/-- The region's invariant before position `n`: before the first point the scratch at anything, afterwards
    the scratch at the support. -/
def Phi (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (suppAt m c)

theorem Phi_pos (c : Dev nD) (n : ℕ) (hn : n ≠ 0) : Phi m c n = owns (c : Thread nD τ) scM fullShare (suppAt m c) := by
  cases n with
  | zero => exact absurd rfl hn
  | succ n => rfl

/-! ## The proof data -/

/-- The arrays as the region finds them; after the body each input's buffer at its block and the output's at
    `outAt`; the invariant `Phi`; the adjacency's two windows at a half share each, the other inputs whole;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := Phi m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; at the first point the scratch is handed
    over at anything and taken back at the support, at a later point it is handed over and taken back at the
    support; the output buffer is handed over at anything and taken back at that point's two halves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = owns (c : Thread nD τ) scM fullShare (suppAt m c) from rfl]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  rw [show (dats m 0 c).leavesExact 3 t = owns (c : Thread nD τ) (ms3 t) fullShare ((dats m 0 c).after 3 t) from by
      unfold Dat.leavesExact; rw [live3 t], after3]
  rw [show (dats m 0 c).leavesExact 4 t = owns (c : Thread nD τ) (ms4 t) fullShare ((dats m 0 c).after 4 t) from by
      unfold Dat.leavesExact; rw [live4 t], after4]
  rw [Phi_castSucc m c t]
  by_cases h0 : t.val = 0
  · obtain rfl : t = t0_0 := Fin.ext h0
    rw [show Phi m c (t0_0 : Fin cfg0.N).val = Pipeline.scopedRest (Ix := Unit) (Name := ℕ) (U := UR sig nD τ) (Lvl := ℕ) (Val := Elt F) spec0 c from rfl,
      scopedRest_eq]
    unfold outAt; rw [dif_pos h0]
    unfold outFirst suppAt suppOf
    iintro ⟨HS, Ho, ⟨%d0, H0⟩, ⟨%d1, H1⟩, ⟨%d2, H2⟩, ⟨%d3, H3⟩, ⟨%d4, H4⟩⟩
    iapply ((runFirst c (grid0.coords t0_0) _ _ _ _ _ _ _ _ _ _ _ _ ((isFirst_iff t0_0).mpr rfl)
      (iblk m c 0 t0_0) (iblk m c 1 t0_0) (iblk m c 2 t0_0) (iblk m c 3 t0_0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (scoverFirst c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _ _)
  · rw [Phi_pos m c _ h0]
    unfold outAt; rw [dif_neg h0]
    unfold outLater
    iintro ⟨HS, Ho, ⟨%d0, H0⟩, ⟨%d1, H1⟩, ⟨%d2, H2⟩, ⟨%d3, H3⟩, ⟨%d4, H4⟩⟩
    iapply ((runLater c (grid0.coords t) _ _ _ _ _ _ _ _ _ _ _ _ (fun hh => h0 ((isFirst_iff t).mp hh))
      (iblk m c 2 t) (iblk m c 3 t) (suppAt m c)).2 (iblk m c 0 t) (iblk m c 1 t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The scoped rest is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 :=
  BI.Entails.refl _

/-- After the last point the invariant gives the scoped rest back: the support is forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = Phi m c (Fin.last cfg0.N).val from rfl,
    Phi_pos m c _ (by rw [Fin.val_last]; have : cfg0.N = 8 := N_0; omega), scopedRest_eq]
  iintro H; iexists _; iexact H

/-- The four buffers behind the five windows' arrays, each whole at the full share, are the proof data's
    arrays at entry: the adjacency's full share is its two halves, one for each window on it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hb : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg2) ↦{fullShare} V m c main_arg2)
          ∗ (((c : Thread nD τ).loc main_arg1) ↦{fullShare} V m c main_arg1) ∗ (((c : Thread nD τ).loc main_v0) ↦{fullShare} V m c main_v0)) := by
    unfold Pipeline.arrBufs
    rw [bigSep_eq_bigSepL_of_eq [main_arg0, main_arg2, main_arg1, main_v0] (by decide) (by decide)]
    rfl
  have ha : ((dats m 0 c).arrays ((dats m 0 c).arrAt · 0) : sProp 𝕄)
      = iprop((((c : Thread nD τ).loc main_arg0) ↦{fullShare} V m c main_arg0) ∗ (((c : Thread nD τ).loc main_arg2) ↦{fullShare} V m c main_arg2)
          ∗ (((c : Thread nD τ).loc main_arg1) ↦{fullShare.left} V m c main_arg1) ∗ (((c : Thread nD τ).loc main_arg1) ↦{fullShare.right} V m c main_arg1)
          ∗ (((c : Thread nD τ).loc main_v0) ↦{fullShare} V m c main_v0)) := by
    unfold Pipeline.Dat.arrays
    rw [bigSep_W0]
    simp only [(arr_whole0 0).set_eq_univ, (arr_whole0 1).set_eq_univ, (arr_whole0 2).set_eq_univ, (arr_whole0 3).set_eq_univ, (arr_whole0 4).set_eq_univ]
    rfl
  rw [hb, ha]
  iintro ⟨Hf, Hw, Ha, Ho⟩
  ihave Ha2 := (pointsTo_share (PosShare.mem_left_op_right fullShare)).1 $$ Ha
  icases Ha2 with ⟨Hl, Hr⟩
  isplitl [Hf]; · iexact Hf
  isplitl [Hw]; · iexact Hw
  isplitl [Hl]; · iexact Hl
  isplitl [Hr]; · iexact Hr
  iexact Ho

set_option backward.isDefEq.respectTransparency.types false in
/-- Every weakly fair execution of the program terminates, and every final state has each window's array at
    what the proof data compute after the last write-back. -/
theorem run_main : θ_run defs (onTc (τ := τ) (main (F := F))) ⟨m, fun _ => 0, ρ⟩ (Pipeline.FramePost cfgs (dats m) 0 (V m)) :=
  Pipeline.θ_run_frame_track_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans (A_eq m c 0)),
     ((h c).1 2).trans (((dats m 0 c).arrAt_in 2 rfl _).trans (A_eq m c 2)),
     ((h c).1 1).trans (((dats m 0 c).arrAt_in 1 rfl _).trans (A_eq m c 1))⟩) (run_main m ρ)

end Cert.Kernel.Hand

end
-- ==== Proof.KI.Base.lean ====
/-
  The run of `KernelIdeal`'s one region, first part: the arrays as the region finds them, each window's block
  at a grid point, the branch condition of the body in closed form over the grid, and the body's staging
  and scratch memrefs. The grid has eight points; at point `t` the two windows on the adjacency array hold
  its row blocks `2t` and `2t + 1` (256 rows each), the output window holds rows `512 t … 512 t + 511`
  of the result, and the features and the weight are staged whole, once.
-/
import proofs.«146879_g4337916969110_retrytranche1_687_8_alg».proof.Proof.Gen.KernelIdeal.Launch
import proofs.«146879_g4337916969110_retrytranche1_687_8_alg».proof.Proof.Gen.KernelIdeal.Skeleton
import proofs.«146879_g4337916969110_retrytranche1_687_8_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The core's buffers when the region is entered: as launched (the program is the region alone). -/
abbrev V (c : Dev nD) (b : Ref sig .tc) : Buf (Elt F) ((c : Thread nD τ).loc b) := m ((c : Thread nD τ).loc b)

/-- The program reduces to its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, when the
    body leaves the block in place: the features, -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the weight, -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the even row block of the adjacency, -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- and the odd one. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body computes the support (features times weight) into its scratch exactly when the grid
    coordinate is zero. -/
abbrev isFirst (i : grid0.Coords) : Prop :=
  (Scalar.cmpi .ne (Scalar.extui (Scalar.cmpi .eq (BitVec.ofNat 32 (i 0).val) 0#32)) 0#32) = 1#1

/-- That is the first point of the grid and no other. -/
theorem isFirst_iff : ∀ t : Fin cfg0.N, isFirst (grid0.coords t) ↔ t.val = 0 :=
  (by decide +kernel : ∀ t : Fin grid0.N, isFirst (grid0.coords t) ↔ t.val = 0)

/-- No window is idle at any point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-! ## The memrefs the body is called with -/

abbrev ms0 (t : Fin cfg0.N) : Memref sig .tc .vmem S4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x256 .f32 := win0_4.stage (cfg0.slots t 4)
abbrev hs4 (t : Fin cfg0.N) : (ms4 t).IsWhole := hstage0_4 ((cfg0.slots t 4).cast nbuf0_4)
/-- The scratch that keeps the support from the first point on. -/
abbrev scM : Memref sig .tc .vmem S4096x256 .f32 := Memref.whole cc0_scratch0
/-- One staging buffer of the output window and the scratch as views, through which contents are stated. -/
abbrev VO : View sig .tc .vmem S512x256 .f32 := (Memref.whole cc0_stg4_0 : Memref sig .tc .vmem S512x256 .f32).view
abbrev VS : View sig .tc .vmem S4096x256 .f32 := scM.view

/-- The scoped buffers that are no staging buffer: the scratch, owned at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.KI.RunFirst.lean ====
/-
  The body at the first grid point, run symbolically on whole memrefs: the features and the weight are
  loaded and their product stored over the whole scratch; then each adjacency row block is multiplied
  with the scratch as just written, clipped below at zero, and stored into its half of the output block.
  The pieces the stores leave in the output buffer and in the scratch are found by the run itself.
-/
import proofs.«146879_g4337916969110_retrytranche1_687_8_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output buffer (two stores, last first) and in the scratch (one store)
    at the first point, with the proof that it runs to a continuation holding the inputs as they were and
    the two written buffers with those pieces written. -/
noncomputable def runFirst (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : isFirst i)
    (x0 : Vec F S4096x256 .f32) (x1 : Vec F S256x256 .f32) (x2 : Vec F S256x4096 .f32) (x3 : Vec F S256x4096 .f32) :
    Σ' (L4 : List (View.Piece (Elt F) S512x256 .f32)), { LS : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__fused_gnn_kernel i arg1 harg1 arg2 harg2 arg3 harg3 arg4 harg4 arg5 harg5 arg6 harg6) K } := by
  refine ⟨?_, ?_, fun E K => ?run⟩
  case run =>
    simp only [cc0__fused_gnn_kernel_eq_skeleton]; unfold cc0__fused_gnn_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

end Cert.KernelIdeal.Hand

end
-- ==== Proof.KI.RunLater.lean ====
/-
  The body at every later grid point, run symbolically on whole memrefs: the branch is not taken, the
  scratch is only read — it holds what the first point stored —, and each adjacency row block is multiplied
  with it, clipped below at zero, and stored into its half of the output block.
-/
import proofs.«146879_g4337916969110_retrytranche1_687_8_alg».proof.Proof.KI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output buffer at a later point (two stores, last first), with the
    proof that it runs to a continuation holding the inputs and the scratch as they were and the output
    buffer with those pieces written. -/
noncomputable def runLater (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : ¬isFirst i)
    (x2 : Vec F S256x4096 .f32) (x3 : Vec F S256x4096 .f32) (xs : Vec F S4096x256 .f32) :
    { L4 : List (View.Piece (Elt F) S512x256 .f32) //
      ∀ (x0 : Vec F S4096x256 .f32) (x1 : Vec F S256x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__fused_gnn_kernel i arg1 harg1 arg2 harg2 arg3 harg3 arg4 harg4 arg5 harg5 arg6 harg6) K } := by
  refine ⟨?_, fun x0 x1 E K => ?run⟩
  case run =>
    simp only [cc0__fused_gnn_kernel_eq_skeleton]; unfold cc0__fused_gnn_kernel_skel
    unfold owns
    iintro ⟨H0, H1, ⟨%f2, %hf2, H2⟩, ⟨%f3, %hf3, H3⟩, ⟨%d4, %f4, -, H4⟩, ⟨%f5, %hf5, H5⟩, Hk⟩
    obtain rfl := harg3.eq_unread hf2; obtain rfl := harg4.eq_unread hf3; obtain rfl := harg6.eq_unread hf5
    sl_exec (disch := exact hc)
    sl_step
    iapply Hk
    isplitl [H0]; · iexact H0
    isplitl [H1]; · iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact H5

end Cert.KernelIdeal.Hand

end
-- ==== Proof.KI.Frame.lean ====
/-
  The run of `KernelIdeal`'s one region: what the scratch and the output buffer hold after each grid point, the
  proof data, the body at every point, and the launch.

  After the first point the scratch holds the support (the product of the features and the weight, as that
  point's run stored it) and no later point writes it; the output buffer after point `t` holds the two
  halves that point stored, each the clipped product of one adjacency row block with the scratch. The
  adjacency array is read through two input windows, so its buffer's full share is dealt between them, a
  half each; nothing writes it.
-/
import proofs.«146879_g4337916969110_retrytranche1_687_8_alg».proof.Proof.KI.RunLater
import proofs.«146879_g4337916969110_retrytranche1_687_8_alg».proof.Proof.LibFrameShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two runs leave -/

/-- The first point's store into the scratch covers it. -/
theorem scoverFirst (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : isFirst i)
    (x0 : Vec F S4096x256 .f32) (x1 : Vec F S256x256 .f32) (x2 : Vec F S256x4096 .f32) (x3 : Vec F S256x4096 .f32) (y : S4096x256.Idx) :
    ∃ pc ∈ (runFirst c i arg1 harg1 arg2 harg2 arg3 harg3 arg4 harg4 arg5 harg5 arg6 harg6 hc x0 x1 x2 x3).2.1, y ∈ pc.1.set :=
  View.cover_of_tiledL (runFirst c i arg1 harg1 arg2 harg2 arg3 harg3 arg4 harg4 arg5 harg5 arg6 harg6 hc x0 x1 x2 x3).2.1 S4096x256.size (by sl_kernel_rfl) y

/-- What the first point leaves in the scratch: its piece read back. -/
def suppOf (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : isFirst i)
    (x0 : Vec F S4096x256 .f32) (x1 : Vec F S256x256 .f32) (x2 : Vec F S256x4096 .f32) (x3 : Vec F S256x4096 .f32) : Vec F S4096x256 .f32 :=
  VS.read (Elt F) (VS.writes (Elt F) VS.junk (runFirst c i arg1 harg1 arg2 harg2 arg3 harg3 arg4 harg4 arg5 harg5 arg6 harg6 hc x0 x1 x2 x3).2.1)

/-- The first point's two stores into the output buffer tile it. -/
theorem coverFirst (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : isFirst i)
    (x0 : Vec F S4096x256 .f32) (x1 : Vec F S256x256 .f32) (x2 : Vec F S256x4096 .f32) (x3 : Vec F S256x4096 .f32) (y : S512x256.Idx) :
    ∃ pc ∈ (runFirst c i arg1 harg1 arg2 harg2 arg3 harg3 arg4 harg4 arg5 harg5 arg6 harg6 hc x0 x1 x2 x3).1, y ∈ pc.1.set :=
  View.cover_of_tiledL (runFirst c i arg1 harg1 arg2 harg2 arg3 harg3 arg4 harg4 arg5 harg5 arg6 harg6 hc x0 x1 x2 x3).1 S256x256.size (by sl_kernel_rfl) y

/-- What the first point leaves in the output buffer. -/
def outFirst (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : isFirst i)
    (x0 : Vec F S4096x256 .f32) (x1 : Vec F S256x256 .f32) (x2 : Vec F S256x4096 .f32) (x3 : Vec F S256x4096 .f32) : Vec F S512x256 .f32 :=
  VO.read (Elt F) (VO.writes (Elt F) VO.junk (runFirst c i arg1 harg1 arg2 harg2 arg3 harg3 arg4 harg4 arg5 harg5 arg6 harg6 hc x0 x1 x2 x3).1)

/-- A later point's two stores into the output buffer tile it. -/
theorem coverLater (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : ¬isFirst i)
    (x2 : Vec F S256x4096 .f32) (x3 : Vec F S256x4096 .f32) (xs : Vec F S4096x256 .f32) (y : S512x256.Idx) :
    ∃ pc ∈ (runLater c i arg1 harg1 arg2 harg2 arg3 harg3 arg4 harg4 arg5 harg5 arg6 harg6 hc x2 x3 xs).1, y ∈ pc.1.set :=
  View.cover_of_tiledL (runLater c i arg1 harg1 arg2 harg2 arg3 harg3 arg4 harg4 arg5 harg5 arg6 harg6 hc x2 x3 xs).1 S256x256.size (by sl_kernel_rfl) y

/-- What a later point leaves in the output buffer. -/
def outLater (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : ¬isFirst i)
    (x2 : Vec F S256x4096 .f32) (x3 : Vec F S256x4096 .f32) (xs : Vec F S4096x256 .f32) : Vec F S512x256 .f32 :=
  VO.read (Elt F) (VO.writes (Elt F) VO.junk (runLater c i arg1 harg1 arg2 harg2 arg3 harg3 arg4 harg4 arg5 harg5 arg6 harg6 hc x2 x3 xs).1)

/-! ## Point by point -/

/-- The support: what the first point's run leaves in the scratch, at that point's memrefs and blocks. -/
def suppAt (c : Dev nD) : Vec F S4096x256 .f32 :=
  suppOf c (grid0.coords t0_0) (ms0 t0_0) (hs0 t0_0) (ms1 t0_0) (hs1 t0_0) (ms2 t0_0) (hs2 t0_0) (ms3 t0_0) (hs3 t0_0) (ms4 t0_0) (hs4 t0_0) scM (Memref.isWhole_whole _)
    ((isFirst_iff t0_0).mpr rfl) (iblk m c 0 t0_0) (iblk m c 1 t0_0) (iblk m c 2 t0_0) (iblk m c 3 t0_0)

/-- The output buffer after the body at point `t`: the first point's run at the first point, else a later
    point's run over the support. -/
def outAt (c : Dev nD) (t : Fin cfg0.N) : Vec F S512x256 .f32 :=
  if h : t.val = 0 then
    outFirst c (grid0.coords t) (ms0 t) (hs0 t) (ms1 t) (hs1 t) (ms2 t) (hs2 t) (ms3 t) (hs3 t) (ms4 t) (hs4 t) scM (Memref.isWhole_whole _)
      ((isFirst_iff t).mpr h) (iblk m c 0 t) (iblk m c 1 t) (iblk m c 2 t) (iblk m c 3 t)
  else
    outLater c (grid0.coords t) (ms0 t) (hs0 t) (ms1 t) (hs1 t) (ms2 t) (hs2 t) (ms3 t) (hs3 t) (ms4 t) (hs4 t) scM (Memref.isWhole_whole _)
      (fun hh => h ((isFirst_iff t).mp hh)) (iblk m c 2 t) (iblk m c 3 t) (suppAt m c)

/-- The region's invariant before position `n`: before the first point the scratch at anything, afterwards
    the scratch at the support. -/
def Phi (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (suppAt m c)

theorem Phi_pos (c : Dev nD) (n : ℕ) (hn : n ≠ 0) : Phi m c n = owns (c : Thread nD τ) scM fullShare (suppAt m c) := by
  cases n with
  | zero => exact absurd rfl hn
  | succ n => rfl

/-! ## The proof data -/

/-- The arrays as the region finds them; after the body each input's buffer at its block and the output's at
    `outAt`; the invariant `Phi`; the adjacency's two windows at a half share each, the other inputs whole;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := Phi m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; at the first point the scratch is handed
    over at anything and taken back at the support, at a later point it is handed over and taken back at the
    support; the output buffer is handed over at anything and taken back at that point's two halves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = owns (c : Thread nD τ) scM fullShare (suppAt m c) from rfl]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  rw [show (dats m 0 c).leavesExact 3 t = owns (c : Thread nD τ) (ms3 t) fullShare ((dats m 0 c).after 3 t) from by
      unfold Dat.leavesExact; rw [live3 t], after3]
  rw [show (dats m 0 c).leavesExact 4 t = owns (c : Thread nD τ) (ms4 t) fullShare ((dats m 0 c).after 4 t) from by
      unfold Dat.leavesExact; rw [live4 t], after4]
  rw [Phi_castSucc m c t]
  by_cases h0 : t.val = 0
  · obtain rfl : t = t0_0 := Fin.ext h0
    rw [show Phi m c (t0_0 : Fin cfg0.N).val = Pipeline.scopedRest (Ix := Unit) (Name := ℕ) (U := UR sig nD τ) (Lvl := ℕ) (Val := Elt F) spec0 c from rfl,
      scopedRest_eq]
    unfold outAt; rw [dif_pos h0]
    unfold outFirst suppAt suppOf
    iintro ⟨HS, Ho, ⟨%d0, H0⟩, ⟨%d1, H1⟩, ⟨%d2, H2⟩, ⟨%d3, H3⟩, ⟨%d4, H4⟩⟩
    iapply ((runFirst c (grid0.coords t0_0) _ _ _ _ _ _ _ _ _ _ _ _ ((isFirst_iff t0_0).mpr rfl)
      (iblk m c 0 t0_0) (iblk m c 1 t0_0) (iblk m c 2 t0_0) (iblk m c 3 t0_0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (scoverFirst c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _ _)
  · rw [Phi_pos m c _ h0]
    unfold outAt; rw [dif_neg h0]
    unfold outLater
    iintro ⟨HS, Ho, ⟨%d0, H0⟩, ⟨%d1, H1⟩, ⟨%d2, H2⟩, ⟨%d3, H3⟩, ⟨%d4, H4⟩⟩
    iapply ((runLater c (grid0.coords t) _ _ _ _ _ _ _ _ _ _ _ _ (fun hh => h0 ((isFirst_iff t).mp hh))
      (iblk m c 2 t) (iblk m c 3 t) (suppAt m c)).2 (iblk m c 0 t) (iblk m c 1 t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The scoped rest is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 :=
  BI.Entails.refl _

/-- After the last point the invariant gives the scoped rest back: the support is forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = Phi m c (Fin.last cfg0.N).val from rfl,
    Phi_pos m c _ (by rw [Fin.val_last]; have : cfg0.N = 8 := N_0; omega), scopedRest_eq]
  iintro H; iexists _; iexact H

/-- The four buffers behind the five windows' arrays, each whole at the full share, are the proof data's
    arrays at entry: the adjacency's full share is its two halves, one for each window on it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hb : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg2) ↦{fullShare} V m c main_arg2)
          ∗ (((c : Thread nD τ).loc main_arg1) ↦{fullShare} V m c main_arg1) ∗ (((c : Thread nD τ).loc main_v0) ↦{fullShare} V m c main_v0)) := by
    unfold Pipeline.arrBufs
    rw [bigSep_eq_bigSepL_of_eq [main_arg0, main_arg2, main_arg1, main_v0] (by decide) (by decide)]
    rfl
  have ha : ((dats m 0 c).arrays ((dats m 0 c).arrAt · 0) : sProp 𝕄)
      = iprop((((c : Thread nD τ).loc main_arg0) ↦{fullShare} V m c main_arg0) ∗ (((c : Thread nD τ).loc main_arg2) ↦{fullShare} V m c main_arg2)
          ∗ (((c : Thread nD τ).loc main_arg1) ↦{fullShare.left} V m c main_arg1) ∗ (((c : Thread nD τ).loc main_arg1) ↦{fullShare.right} V m c main_arg1)
          ∗ (((c : Thread nD τ).loc main_v0) ↦{fullShare} V m c main_v0)) := by
    unfold Pipeline.Dat.arrays
    rw [bigSep_W0]
    simp only [(arr_whole0 0).set_eq_univ, (arr_whole0 1).set_eq_univ, (arr_whole0 2).set_eq_univ, (arr_whole0 3).set_eq_univ, (arr_whole0 4).set_eq_univ]
    rfl
  rw [hb, ha]
  iintro ⟨Hf, Hw, Ha, Ho⟩
  ihave Ha2 := (pointsTo_share (PosShare.mem_left_op_right fullShare)).1 $$ Ha
  icases Ha2 with ⟨Hl, Hr⟩
  isplitl [Hf]; · iexact Hf
  isplitl [Hw]; · iexact Hw
  isplitl [Hl]; · iexact Hl
  isplitl [Hr]; · iexact Hr
  iexact Ho

set_option backward.isDefEq.respectTransparency.types false in
/-- Every weakly fair execution of the program terminates, and every final state has each window's array at
    what the proof data compute after the last write-back. -/
theorem run_main : θ_run defs (onTc (τ := τ) (main (F := F))) ⟨m, fun _ => 0, ρ⟩ (Pipeline.FramePost cfgs (dats m) 0 (V m)) :=
  Pipeline.θ_run_frame_track_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans (A_eq m c 0)),
     ((h c).1 2).trans (((dats m 0 c).arrAt_in 2 rfl _).trans (A_eq m c 2)),
     ((h c).1 1).trans (((dats m 0 c).arrAt_in 1 rfl _).trans (A_eq m c 1))⟩) (run_main m ρ)

end Cert.KernelIdeal.Hand

end
-- ==== Proof.KI.Pieces.lean ====
/-
  What the two runs leave, as terms of the body's three products. The scratch after the first point is the
  product of the features block and the weight block. The output buffer after a point is two stores laid
  side by side: rows 0 … 255 hold the clipped product of the even adjacency row block with the support,
  rows 256 … 511 that of the odd row block; at the first point the support the two stores read is the one
  that point has just stored.
-/
import proofs.«146879_g4337916969110_retrytranche1_687_8_alg».proof.Proof.KI.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz : (![0, 0] : Fin 2 → Nat) = fun _ => 0 := funext fun a => by fin_cases a <;> rfl

/-- The first point stores the product of its two whole blocks into the scratch. -/
theorem suppOf_eq (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : isFirst i)
    (x0 : Vec F S4096x256 .f32) (x1 : Vec F S256x256 .f32) (x2 : Vec F S256x4096 .f32) (x3 : Vec F S256x4096 .f32) :
    suppOf c i arg1 harg1 arg2 harg2 arg3 harg3 arg4 harg4 arg5 harg5 arg6 harg6 hc x0 x1 x2 x3 = k0_pay1 x0 x1 := by
  unfold suppOf
  rw [View.read_writes_eq_canon _ _ _ (scoverFirst c i arg1 harg1 arg2 harg2 arg3 harg3 arg4 harg4 arg5 harg5 arg6 harg6 hc x0 x1 x2 x3)]
  unfold runFirst
  dsimp only
  try sl_unfold_words
  rw [View.canon_unit_zero hz]
  simp only [View.readAt_eq_ld, harg1.read_unread, harg2.read_unread, View.ld_unit_zero (S := S4096x256) hz, View.ld_unit_zero (S := S256x256) hz]

/-- Two stores of 256 rows each, the later one at row offset 256, read at a row below 256: the earlier store. -/
theorem canon_top (p q : Vec F S256x256 .f32) (y : S512x256.Idx) (h : (y 0).val < 256) :
    View.canon [(⟨Rect.unit (s := S512x256) ![256, 0] S256x256.size inb_S512x256_S256x256_256_0, q⟩ : View.Piece (Elt F) S512x256 .f32),
        ⟨Rect.unit (s := S512x256) ![0, 0] S256x256.size inb_S512x256_S256x256_0_0, p⟩] y
      = p (ix2 ⟨(y 0).val, h⟩ (y 1)) := by
  rw [View.canon_cons_of_not_mem _ _ (by
    intro hm
    have hm' : y ∈ (Rect.unit (s := S512x256) ![256, 0] S256x256.size inb_S512x256_S256x256_256_0).set := hm
    have h0 : 256 ≤ (y 0).val ∧ (y 0).val < 256 + 256 := (Rect.mem_set_unit.mp hm') 0
    omega)]
  have hy : (Rect.unit (s := S512x256) ![0, 0] S256x256.size inb_S512x256_S256x256_0_0).emb (ix2 ⟨(y 0).val, h⟩ (y 1)) = y := by
    funext a; apply Fin.ext
    match a with
    | ⟨0, _⟩ => show 0 + 1 * (y 0).val = (y 0).val; omega
    | ⟨1, _⟩ => show 0 + 1 * (y 1).val = (y 1).val; omega
  exact (congrArg _ hy.symm).trans (View.canon_cons_emb (Rect.unit (s := S512x256) ![0, 0] S256x256.size inb_S512x256_S256x256_0_0) p [] (ix2 ⟨(y 0).val, h⟩ (y 1)))

/-- The same read at a row from 256 on: the later store, 256 rows up. -/
theorem canon_bot (p q : Vec F S256x256 .f32) (y : S512x256.Idx) (h : 256 ≤ (y 0).val) :
    View.canon [(⟨Rect.unit (s := S512x256) ![256, 0] S256x256.size inb_S512x256_S256x256_256_0, q⟩ : View.Piece (Elt F) S512x256 .f32),
        ⟨Rect.unit (s := S512x256) ![0, 0] S256x256.size inb_S512x256_S256x256_0_0, p⟩] y
      = q (ix2 ⟨(y 0).val - 256, by have := (y 0).isLt; change (y 0).val < 512 at this; omega⟩ (y 1)) := by
  have hlt : (y 0).val < 512 := (y 0).isLt
  have hy : (Rect.unit (s := S512x256) ![256, 0] S256x256.size inb_S512x256_S256x256_256_0).emb
      (ix2 ⟨(y 0).val - 256, by omega⟩ (y 1)) = y := by
    funext a; apply Fin.ext
    match a with
    | ⟨0, _⟩ => show 256 + 1 * ((y 0).val - 256) = (y 0).val; omega
    | ⟨1, _⟩ => show 0 + 1 * (y 1).val = (y 1).val; omega
  exact (congrArg _ hy.symm).trans (View.canon_cons_emb (Rect.unit (s := S512x256) ![256, 0] S256x256.size inb_S512x256_S256x256_256_0) q _ (ix2 ⟨(y 0).val - 256, by omega⟩ (y 1)))

/-- The output buffer after the first point, index by index. -/
theorem outFirst_eq (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : isFirst i)
    (x0 : Vec F S4096x256 .f32) (x1 : Vec F S256x256 .f32) (x2 : Vec F S256x4096 .f32) (x3 : Vec F S256x4096 .f32) :
    outFirst c i arg1 harg1 arg2 harg2 arg3 harg3 arg4 harg4 arg5 harg5 arg6 harg6 hc x0 x1 x2 x3
      = View.canon [(⟨Rect.unit (s := S512x256) ![256, 0] S256x256.size inb_S512x256_S256x256_256_0, k0_pay3 x3 (k0_pay1 x0 x1)⟩ : View.Piece (Elt F) S512x256 .f32),
          ⟨Rect.unit (s := S512x256) ![0, 0] S256x256.size inb_S512x256_S256x256_0_0, k0_pay2 x2 (k0_pay1 x0 x1)⟩] := by
  unfold outFirst
  rw [View.read_writes_eq_canon _ _ _ (coverFirst c i arg1 harg1 arg2 harg2 arg3 harg3 arg4 harg4 arg5 harg5 arg6 harg6 hc x0 x1 x2 x3)]
  unfold runFirst
  dsimp only
  try sl_unfold_words
  rw [View.readCov_unit_zero (S := S4096x256) _ hz]
  simp only [View.readAt_eq_ld, harg1.read_unread, harg2.read_unread, harg3.read_unread, harg4.read_unread,
    View.ld_unit_zero (S := S4096x256) hz, View.ld_unit_zero (S := S256x256) hz, View.ld_unit_zero (S := S256x4096) hz]

/-- The output buffer after a later point, index by index. -/
theorem outLater_eq (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S512x256 .f32) (harg5 : arg5.IsWhole) (arg6 : Memref sig .tc .vmem S4096x256 .f32) (harg6 : arg6.IsWhole) (hc : ¬isFirst i)
    (x2 : Vec F S256x4096 .f32) (x3 : Vec F S256x4096 .f32) (xs : Vec F S4096x256 .f32) :
    outLater c i arg1 harg1 arg2 harg2 arg3 harg3 arg4 harg4 arg5 harg5 arg6 harg6 hc x2 x3 xs
      = View.canon [(⟨Rect.unit (s := S512x256) ![256, 0] S256x256.size inb_S512x256_S256x256_256_0, k0_pay3 x3 xs⟩ : View.Piece (Elt F) S512x256 .f32),
          ⟨Rect.unit (s := S512x256) ![0, 0] S256x256.size inb_S512x256_S256x256_0_0, k0_pay2 x2 xs⟩] := by
  unfold outLater
  rw [View.read_writes_eq_canon _ _ _ (coverLater c i arg1 harg1 arg2 harg2 arg3 harg3 arg4 harg4 arg5 harg5 arg6 harg6 hc x2 x3 xs)]
  unfold runLater
  dsimp only
  try sl_unfold_words
  simp only [View.readAt_eq_ld, harg3.read_unread, harg4.read_unread, harg6.read_unread,
    View.ld_unit_zero (S := S4096x256) hz, View.ld_unit_zero (S := S256x4096) hz]

end Cert.KernelIdeal.Hand

end
-- ==== Proof.KI.Blocks.lean ====
/-
  The windows' blocks as entries of the argument arrays, and the cover of the result by the output window's blocks.

  The grid has eight points. The features (4096 x 256) and the weight (256 x 256) are each one block, the whole
  array, at every point. The adjacency (4096 x 4096) is read through two windows of 256 rows: at point `t` they
  hold row blocks `2t` and `2t + 1`, that is rows `512 t … 512 t + 255` and `512 t + 256 … 512 t + 511`. The
  output window holds rows `512 t … 512 t + 511` of the result (4096 x 256) and is written back at every point, so
  row `r` of the result is covered by the block of point `r / 512`.
-/
import proofs.«146879_g4337916969110_retrytranche1_687_8_alg».proof.Proof.KI.Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

variable (m : (ℓ : Loc nD τ sig) → Buf (Elt F) ℓ)

/-! ## The block coordinates of each window over the grid -/

/-- The features' window is block (0, 0) at every point. -/
theorem index0 : ∀ t : Fin cfg0.N, win0_0.index t 0 = 0 ∧ win0_0.index t 1 = 0 :=
  (by decide +kernel : ∀ t : Fin grid0.N, win0_0.index t 0 = 0 ∧ win0_0.index t 1 = 0)
/-- The weight's window is block (0, 0) at every point. -/
theorem index1 : ∀ t : Fin cfg0.N, win0_1.index t 0 = 0 ∧ win0_1.index t 1 = 0 :=
  (by decide +kernel : ∀ t : Fin grid0.N, win0_1.index t 0 = 0 ∧ win0_1.index t 1 = 0)
/-- The adjacency's first window is row block `2t` at point `t`. -/
theorem index2 : ∀ t : Fin cfg0.N, win0_2.index t 0 = 2 * t.val ∧ win0_2.index t 1 = 0 :=
  (by decide +kernel : ∀ t : Fin grid0.N, win0_2.index t 0 = 2 * t.val ∧ win0_2.index t 1 = 0)
/-- The adjacency's second window is row block `2t + 1` at point `t`. -/
theorem index3 : ∀ t : Fin cfg0.N, win0_3.index t 0 = 2 * t.val + 1 ∧ win0_3.index t 1 = 0 :=
  (by decide +kernel : ∀ t : Fin grid0.N, win0_3.index t 0 = 2 * t.val + 1 ∧ win0_3.index t 1 = 0)
/-- The output window is row block `t` at point `t`. -/
theorem index4 : ∀ t : Fin cfg0.N, win0_4.index t 0 = t.val ∧ win0_4.index t 1 = 0 :=
  (by decide +kernel : ∀ t : Fin grid0.N, win0_4.index t 0 = t.val ∧ win0_4.index t 1 = 0)
/-- The output window's block is a full 512 x 256 one at every point. -/
theorem xsize4 : ∀ t : Fin cfg0.N, win0_4.xsize (grid0.coords t) 0 = 512 ∧ win0_4.xsize (grid0.coords t) 1 = 256 :=
  (by decide +kernel : ∀ t : Fin grid0.N, win0_4.xsize (grid0.coords t) 0 = 512 ∧ win0_4.xsize (grid0.coords t) 1 = 256)

/-! ## The input blocks as entries of the arguments -/

/-- The features' block at any point is the features array: entry `x` of the block is entry `x` of the array. -/
theorem iblk0_apply (c : Dev nD) (t : Fin cfg0.N) (x : S4096x256.Idx) :
    (iblk m c 0 t : Vec F S4096x256 .f32) x = (m ((c : Thread nD τ).loc main_arg0) : S4096x256.Idx → Elt F .f32) x := by
  have hi := index0 t
  unfold iblk
  rw [View.read_apply]
  show V m c main_arg0 _ = m (c.tc.loc main_arg0) _
  unfold V
  congr 1
  funext a
  apply Fin.ext
  match a with
  | ⟨0, _⟩ => show win0_0.index t 0 * 4096 + 1 * (x 0).val = (x 0).val; rw [hi.1]; omega
  | ⟨1, _⟩ => show win0_0.index t 1 * 256 + 1 * (x 1).val = (x 1).val; rw [hi.2]; omega

/-- The weight's block at any point is the weight array. -/
theorem iblk1_apply (c : Dev nD) (t : Fin cfg0.N) (x : S256x256.Idx) :
    (iblk m c 1 t : Vec F S256x256 .f32) x = (m ((c : Thread nD τ).loc main_arg2) : S256x256.Idx → Elt F .f32) x := by
  have hi := index1 t
  unfold iblk
  rw [View.read_apply]
  show V m c main_arg2 _ = m (c.tc.loc main_arg2) _
  unfold V
  congr 1
  funext a
  apply Fin.ext
  match a with
  | ⟨0, _⟩ => show win0_1.index t 0 * 256 + 1 * (x 0).val = (x 0).val; rw [hi.1]; omega
  | ⟨1, _⟩ => show win0_1.index t 1 * 256 + 1 * (x 1).val = (x 1).val; rw [hi.2]; omega

/-- The adjacency's first block at point `t`: row `p` of the block is row `512 t + p` of the adjacency. -/
theorem iblk2_apply (c : Dev nD) (t : Fin cfg0.N) (x : S256x4096.Idx) (k : S4096x4096.Idx)
    (hk0 : (k 0).val = 512 * t.val + (x 0).val) (hk1 : (k 1).val = (x 1).val) :
    (iblk m c 2 t : Vec F S256x4096 .f32) x = (m ((c : Thread nD τ).loc main_arg1) : S4096x4096.Idx → Elt F .f32) k := by
  have hi := index2 t
  unfold iblk
  rw [View.read_apply]
  show V m c main_arg1 _ = m (c.tc.loc main_arg1) _
  unfold V
  congr 1
  funext a
  apply Fin.ext
  match a with
  | ⟨0, _⟩ => show win0_2.index t 0 * 256 + 1 * (x 0).val = (k 0).val; rw [hi.1, hk0]; omega
  | ⟨1, _⟩ => show win0_2.index t 1 * 4096 + 1 * (x 1).val = (k 1).val; rw [hi.2, hk1]; omega

/-- The adjacency's second block at point `t`: row `p` of the block is row `512 t + 256 + p` of the adjacency. -/
theorem iblk3_apply (c : Dev nD) (t : Fin cfg0.N) (x : S256x4096.Idx) (k : S4096x4096.Idx)
    (hk0 : (k 0).val = 512 * t.val + 256 + (x 0).val) (hk1 : (k 1).val = (x 1).val) :
    (iblk m c 3 t : Vec F S256x4096 .f32) x = (m ((c : Thread nD τ).loc main_arg1) : S4096x4096.Idx → Elt F .f32) k := by
  have hi := index3 t
  unfold iblk
  rw [View.read_apply]
  show V m c main_arg1 _ = m (c.tc.loc main_arg1) _
  unfold V
  congr 1
  funext a
  apply Fin.ext
  match a with
  | ⟨0, _⟩ => show win0_3.index t 0 * 256 + 1 * (x 0).val = (k 0).val; rw [hi.1, hk0]; omega
  | ⟨1, _⟩ => show win0_3.index t 1 * 4096 + 1 * (x 1).val = (k 1).val; rw [hi.2, hk1]; omega

/-! ## The output blocks cover the result -/

/-- Every entry of the result lies in the block some point writes back: entry (r, j) in the block of point `r / 512`,
    whose rows are `512 (r / 512) … 512 (r / 512) + 511`. -/
theorem out_cover (i : S4096x256.Idx) :
    ∃ t : Fin cfg0.N, (cfg0.win 4).flush t = true ∧ i ∈ ((cfg0.win 4).blk t).view.set := by
  have h0 : (i 0 : Nat) < 4096 := (i 0).isLt
  have h1 : (i 1 : Nat) < 256 := (i 1).isLt
  obtain ⟨t, ht⟩ : ∃ t : Fin cfg0.N, t.val = (i 0 : Nat) / 512 :=
    ⟨⟨(i 0 : Nat) / 512, by rw [show cfg0.N = 8 from N_0]; omega⟩, rfl⟩
  refine ⟨t, flush0_4 t, ?_⟩
  show i ∈ ((View.whole main_v0).slice (win0_4.rect t)).set
  rw [View.set_slice_whole, Rect.mem_set_unit]
  intro a
  match a with
  | ⟨0, _⟩ =>
    show win0_4.index t 0 * win0_4.size 0 ≤ (i 0 : Nat) ∧ (i 0 : Nat) < win0_4.index t 0 * win0_4.size 0 + win0_4.xsize (grid0.coords t) 0
    rw [(index4 t).1, (xsize4 t).1, show win0_4.size 0 = 512 from rfl, ht]; omega
  | ⟨1, _⟩ =>
    show win0_4.index t 1 * win0_4.size 1 ≤ (i 1 : Nat) ∧ (i 1 : Nat) < win0_4.index t 1 * win0_4.size 1 + win0_4.xsize (grid0.coords t) 1
    rw [(index4 t).2, (xsize4 t).2, show win0_4.size 1 = 256 from rfl]; omega

end Cert.KernelIdeal.Hand

end
-- ==== Proof.Spec.lean ====
/-
  The specification of the graph-convolution layer, entry by entry, over coordinates.

  With features X (4096 x 256), adjacency A (4096 x 4096) and weight W (256 x 256), the layer's result is
  relu (A (X W)): the support matrix X W is formed first and then multiplied by A on the left, and every
  entry is clipped below at zero. Both programs form their sums in this same nesting, so the result is stated
  with exactly that nesting and no rearrangement of a sum is ever needed.
-/
import Idealize.ShloMosaic.PureOps.Ideal
import Idealize.ShloMosaic.Lib.ValueIdx

noncomputable section

open scoped BigOperators

namespace Cert.Spec

/-- The support matrix X W: its entry in row `k`, column `j` is the sum over `l` of `X k l * W l j`. -/
def support (feat : Fin 4096 → Fin 256 → EReal) (w : Fin 256 → Fin 256 → EReal) (k : Fin 4096) (j : Fin 256) : EReal :=
  ∑ l : Fin 256, feat k l * w l j

/-- The layer's result relu (A (X W)): its entry in row `r`, column `j` is the larger of zero and the sum over
    `k` of `A r k` times the support matrix's entry `(k, j)`. -/
def G (feat : Fin 4096 → Fin 256 → EReal) (adj : Fin 4096 → Fin 4096 → EReal) (w : Fin 256 → Fin 256 → EReal)
    (r : Fin 4096) (j : Fin 256) : EReal :=
  max (∑ k : Fin 4096, adj r k * support feat w k j) 0

end Cert.Spec

end
-- ==== Proof.PayValue.lean ====
/-
  The three arithmetic payloads of the kernel body, each read at one entry.

  The first payload is the support matrix X W, formed once: a 4096 x 256 by 256 x 256 product accumulated into a
  zero splat. The second and third are the same computation on two different 256-row windows of the adjacency
  matrix: a 256 x 4096 window times the 4096 x 256 support matrix, accumulated into a zero splat, then the
  entrywise maximum with zero. At the extended reals a product into the zero splat is the plain sum over the
  contracted coordinate, and the maximum is the order's `max`.
-/
import proofs.«146879_g4337916969110_retrytranche1_687_8_alg».proof.Proof.Spec
import proofs.«146879_g4337916969110_retrytranche1_687_8_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## The operand coordinates of the two products

For a product contracting the left operand's columns against the right operand's rows, the operand indices at
output entry (p, q) and summation variable l are (p, l) and (l, q). -/

/-- Left operand's row coordinate at an output index: the output's row. -/
theorem sup_lhs_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
/-- Left operand's column coordinate: the summation variable. -/
theorem sup_lhs_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
/-- Right operand's row coordinate: the summation variable. -/
theorem sup_rhs_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
/-- Right operand's column coordinate: the output's column. -/
theorem sup_rhs_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- Left operand's row coordinate at an output index: the output's row. -/
theorem agg_lhs_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
/-- Left operand's column coordinate: the summation variable. -/
theorem agg_lhs_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
/-- Right operand's row coordinate: the summation variable. -/
theorem agg_rhs_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
/-- Right operand's column coordinate: the output's column. -/
theorem agg_rhs_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-! ## The two products at an entry -/

/-- The features-times-weight product into the zero splat, at entry (p, q): the sum over `l` of `a (p, l) * b (l, q)`. -/
theorem support_matmul_apply (a : FVec Ideal S4096x256 .f32) (b : FVec Ideal S256x256 .f32) (p : Fin 4096) (q : Fin 256) :
    matmul (F := Ideal) dot_S4096x256_S256x256_S4096x256_1_0_0_1_n_n none a b (constant (F := Ideal) S4096x256 .f32 0x00000000#32) (ix2 p q)
      = ∑ l : Fin 256, a (ix2 p l) * b (ix2 l q) := by
  simp only [matmul]
  rw [Ideal.matmul_constant_zero_apply, ← Equiv.sum_comp (contrEquiv1 dot_S4096x256_S256x256_S4096x256_1_0_0_1_n_n 256 rfl rfl).symm]
  refine Finset.sum_congr rfl fun l _ => ?_
  have hl := contrEquiv1_symm_val dot_S4096x256_S256x256_S4096x256_1_0_0_1_n_n 256 rfl rfl l
  have el : dot_S4096x256_S256x256_S4096x256_1_0_0_1_n_n.lhsIdx (ix2 p q) ((contrEquiv1 dot_S4096x256_S256x256_S4096x256_1_0_0_1_n_n 256 rfl rfl).symm l) = ix2 p l := funext fun c => Fin.ext (by
    match c with
    | ⟨0, _⟩ => exact sup_lhs_0 _ _
    | ⟨1, _⟩ => exact (sup_lhs_1 _ _).trans hl)
  have er : dot_S4096x256_S256x256_S4096x256_1_0_0_1_n_n.rhsIdx (ix2 p q) ((contrEquiv1 dot_S4096x256_S256x256_S4096x256_1_0_0_1_n_n 256 rfl rfl).symm l) = ix2 l q := funext fun c => Fin.ext (by
    match c with
    | ⟨0, _⟩ => exact (sup_rhs_0 _ _).trans hl
    | ⟨1, _⟩ => exact sup_rhs_1 _ _)
  rw [el, er]

/-- An adjacency window times the support matrix into the zero splat, at entry (p, q): the sum over `l` of `a (p, l) * b (l, q)`. -/
theorem window_matmul_apply (a : FVec Ideal S256x4096 .f32) (b : FVec Ideal S4096x256 .f32) (p : Fin 256) (q : Fin 256) :
    matmul (F := Ideal) dot_S256x4096_S4096x256_S256x256_1_0_0_1_n_n none a b (constant (F := Ideal) S256x256 .f32 0x00000000#32) (ix2 p q)
      = ∑ l : Fin 4096, a (ix2 p l) * b (ix2 l q) := by
  simp only [matmul]
  rw [Ideal.matmul_constant_zero_apply, ← Equiv.sum_comp (contrEquiv1 dot_S256x4096_S4096x256_S256x256_1_0_0_1_n_n 4096 rfl rfl).symm]
  refine Finset.sum_congr rfl fun l _ => ?_
  have hl := contrEquiv1_symm_val dot_S256x4096_S4096x256_S256x256_1_0_0_1_n_n 4096 rfl rfl l
  have el : dot_S256x4096_S4096x256_S256x256_1_0_0_1_n_n.lhsIdx (ix2 p q) ((contrEquiv1 dot_S256x4096_S4096x256_S256x256_1_0_0_1_n_n 4096 rfl rfl).symm l) = ix2 p l := funext fun c => Fin.ext (by
    match c with
    | ⟨0, _⟩ => exact agg_lhs_0 _ _
    | ⟨1, _⟩ => exact (agg_lhs_1 _ _).trans hl)
  have er : dot_S256x4096_S4096x256_S256x256_1_0_0_1_n_n.rhsIdx (ix2 p q) ((contrEquiv1 dot_S256x4096_S4096x256_S256x256_1_0_0_1_n_n 4096 rfl rfl).symm l) = ix2 l q := funext fun c => Fin.ext (by
    match c with
    | ⟨0, _⟩ => exact (agg_rhs_0 _ _).trans hl
    | ⟨1, _⟩ => exact agg_rhs_1 _ _)
  rw [el, er]

/-! ## The payloads -/

/-- The support payload at entry (k, j): the sum over `l` of `x (k, l) * w (l, j)`. The reshape to the same shape
    changes nothing. -/
theorem pay1_apply (x : Vec Ideal S4096x256 .f32) (w : Vec Ideal S256x256 .f32) (k : Fin 4096) (j : Fin 256) :
    Gen.k0_pay1 (F := Ideal) x w (ix2 k j) = ∑ l : Fin 256, x (ix2 k l) * w (ix2 l j) := by
  unfold Gen.k0_pay1
  rw [shapeCast_self]
  exact support_matmul_apply x w k j

/-- The first window's payload at entry (r, j): the larger of zero and the sum over `k` of `a (r, k) * s (k, j)`. -/
theorem pay2_apply (a : Vec Ideal S256x4096 .f32) (s : Vec Ideal S4096x256 .f32) (r : Fin 256) (j : Fin 256) :
    Gen.k0_pay2 (F := Ideal) a s (ix2 r j) = max (∑ k : Fin 4096, a (ix2 r k) * s (ix2 k j)) 0 := by
  unfold Gen.k0_pay2
  rw [maximumf_apply, window_matmul_apply, broadcast_apply]
  show max _ (Ideal.ofBits .f32 0x00000000#32) = _
  rw [Ideal.ofBits_zero_f32]

/-- The second window's payload at entry (r, j): the same expression of its own window. -/
theorem pay3_apply (a : Vec Ideal S256x4096 .f32) (s : Vec Ideal S4096x256 .f32) (r : Fin 256) (j : Fin 256) :
    Gen.k0_pay3 (F := Ideal) a s (ix2 r j) = max (∑ k : Fin 4096, a (ix2 r k) * s (ix2 k j)) 0 := by
  unfold Gen.k0_pay3
  rw [maximumf_apply, window_matmul_apply, broadcast_apply]
  show max _ (Ideal.ofBits .f32 0x00000000#32) = _
  rw [Ideal.ofBits_zero_f32]

end Cert.KernelIdeal.PayValue

end
-- ==== Proof.KI.Bridge.lean ====
/-
  The kernel's two stored halves of an output block, entry by entry, are the specification's entries.

  At grid point `t` the body stores a 512 x 256 block of the result in two halves of 256 rows. The top half is the
  first adjacency window (rows `512 t … 512 t + 255` of the adjacency) times the support matrix, clipped at zero; the
  bottom half is the second window (rows `512 t + 256 … 512 t + 511`) times the support matrix, clipped at zero. The
  support matrix is the features' block times the weight's block, and those blocks are the whole arrays. So row `p`
  of the block, in either half, is row `512 t + p` of relu (A (X W)): the same nested sum as the specification's.
-/
import proofs.«146879_g4337916969110_retrytranche1_687_8_alg».proof.Proof.KI.Blocks
import proofs.«146879_g4337916969110_retrytranche1_687_8_alg».proof.Proof.PayValue
import proofs.«146879_g4337916969110_retrytranche1_687_8_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The whole result array as one function of the three argument arrays: entry (r, j) is the larger of zero and the
    sum over `k` of `A (r, k)` times the sum over `l` of `X (k, l) * W (l, j)`. -/
def Gout (c : Dev nD) : Buf (Elt Ideal) ((c : Thread nD τ).loc main_v0) := fun i =>
  Cert.Spec.G (fun a b => (m ((c : Thread nD τ).loc main_arg0) : S4096x256.Idx → Elt Ideal .f32) (ix2 a b))
              (fun a b => (m ((c : Thread nD τ).loc main_arg1) : S4096x4096.Idx → Elt Ideal .f32) (ix2 a b))
              (fun a b => (m ((c : Thread nD τ).loc main_arg2) : S256x256.Idx → Elt Ideal .f32) (ix2 a b)) (i 0) (i 1)

/-! ## Over arbitrary blocks

If row `r` of an adjacency window is row `R` of `A`, and the two staged operands are `X` and `W` entry by entry, the
window's clipped product with their product, at (r, j), is the specification's entry (R, j). -/

/-- The first window's payload over the support payload. -/
theorem top_spec (a : Vec Ideal S256x4096 .f32) (x0 : Vec Ideal S4096x256 .f32) (x1 : Vec Ideal S256x256 .f32)
    (feat : Fin 4096 → Fin 256 → EReal) (adj : Fin 4096 → Fin 4096 → EReal) (w : Fin 256 → Fin 256 → EReal)
    (r : Fin 256) (R : Fin 4096) (j : Fin 256)
    (ha : ∀ k : Fin 4096, a (ix2 r k) = adj R k) (h0 : ∀ (k : Fin 4096) (l : Fin 256), x0 (ix2 k l) = feat k l)
    (h1 : ∀ l q : Fin 256, x1 (ix2 l q) = w l q) :
    Gen.k0_pay2 (F := Ideal) a (Gen.k0_pay1 (F := Ideal) x0 x1) (ix2 r j) = Cert.Spec.G feat adj w R j := by
  rw [PayValue.pay2_apply]
  simp only [PayValue.pay1_apply, ha, h0, h1]
  rfl

/-- The second window's payload over the support payload. -/
theorem bot_spec (a : Vec Ideal S256x4096 .f32) (x0 : Vec Ideal S4096x256 .f32) (x1 : Vec Ideal S256x256 .f32)
    (feat : Fin 4096 → Fin 256 → EReal) (adj : Fin 4096 → Fin 4096 → EReal) (w : Fin 256 → Fin 256 → EReal)
    (r : Fin 256) (R : Fin 4096) (j : Fin 256)
    (ha : ∀ k : Fin 4096, a (ix2 r k) = adj R k) (h0 : ∀ (k : Fin 4096) (l : Fin 256), x0 (ix2 k l) = feat k l)
    (h1 : ∀ l q : Fin 256, x1 (ix2 l q) = w l q) :
    Gen.k0_pay3 (F := Ideal) a (Gen.k0_pay1 (F := Ideal) x0 x1) (ix2 r j) = Cert.Spec.G feat adj w R j := by
  rw [PayValue.pay3_apply]
  simp only [PayValue.pay1_apply, ha, h0, h1]
  rfl

/-! ## At the windows' blocks -/

/-- Top half of the block stored at point `t`: its row `p < 256`, column `q`, is the result's entry
    `(512 t + p, q)`. The support may have been formed at any point `t'`: the features' and the weight's blocks are
    the same at every point. -/
theorem top_at (c : Dev nD) (t t' : Fin cfg0.N) (y : S512x256.Idx) (h : (y 0).val < 256) (i : S4096x256.Idx)
    (hi0 : (i 0).val = 512 * t.val + (y 0).val) (hi1 : (i 1).val = (y 1).val) :
    Gen.k0_pay2 (F := Ideal) (iblk m c 2 t) (Gen.k0_pay1 (F := Ideal) (iblk m c 0 t') (iblk m c 1 t'))
        (ix2 ⟨(y 0).val, h⟩ (y 1)) = Gout m c i := by
  have e1 : (y 1 : Fin 256) = i 1 := Fin.ext hi1.symm
  rw [e1]
  unfold Gout
  refine top_spec (iblk m c 2 t) (iblk m c 0 t') (iblk m c 1 t') _ _ _ ⟨(y 0).val, h⟩ (i 0) (i 1) (fun k => ?_) (fun k l => ?_) (fun l q => ?_)
  · exact iblk2_apply m c t _ _ hi0 rfl
  · exact iblk0_apply m c t' _
  · exact iblk1_apply m c t' _

/-- Bottom half of the block stored at point `t`: its row `p ≥ 256`, column `q`, read from row `p - 256` of the
    second window's product, is the result's entry `(512 t + p, q)`. -/
theorem bot_at (c : Dev nD) (t t' : Fin cfg0.N) (y : S512x256.Idx) (h : 256 ≤ (y 0).val) (i : S4096x256.Idx)
    (hi0 : (i 0).val = 512 * t.val + (y 0).val) (hi1 : (i 1).val = (y 1).val) :
    Gen.k0_pay3 (F := Ideal) (iblk m c 3 t) (Gen.k0_pay1 (F := Ideal) (iblk m c 0 t') (iblk m c 1 t'))
        (ix2 ⟨(y 0).val - 256, by have : (y 0).val < 512 := (y 0).isLt; omega⟩ (y 1)) = Gout m c i := by
  have e1 : (y 1 : Fin 256) = i 1 := Fin.ext hi1.symm
  rw [e1]
  unfold Gout
  refine bot_spec (iblk m c 3 t) (iblk m c 0 t') (iblk m c 1 t') _ _ _ ⟨(y 0).val - 256, by have : (y 0).val < 512 := (y 0).isLt; omega⟩ (i 0) (i 1) (fun k => ?_) (fun k l => ?_) (fun l q => ?_)
  · refine iblk3_apply m c t _ _ ?_ rfl
    show (i 0).val = 512 * t.val + 256 + ((y 0).val - 256)
    omega
  · exact iblk0_apply m c t' _
  · exact iblk1_apply m c t' _

end Cert.KernelIdeal.Hand

end
-- ==== Proof.KI.Value.lean ====
/-
  The value of `KernelIdeal`'s result array at the ideal instance. At every grid point the output buffer
  holds, row by row, the clipped product of an adjacency row with the support — rows 0 … 255 of block `t`
  from adjacency rows `512 t …`, rows 256 … 511 from adjacency rows `512 t + 256 …` —, which is the
  whole-array function `Gout` read through the output window's block; the eight blocks cover the result
  array, so it ends holding `Gout`.
-/
import proofs.«146879_g4337916969110_retrytranche1_687_8_alg».proof.Proof.KI.Pieces
import proofs.«146879_g4337916969110_retrytranche1_687_8_alg».proof.Proof.KI.Bridge
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The support kept in the scratch is the product of the whole features array and the whole weight, as the
    first point read them. -/
theorem suppAt_eq (c : Dev nD) : suppAt m c = k0_pay1 (F := Ideal) (iblk m c 0 t0_0) (iblk m c 1 t0_0) := by
  unfold suppAt
  exact suppOf_eq c _ _ _ _ _ _ _ _ _ _ _ _ _ _ _ _ _ _

/-- Entry `y` of the output buffer after point `t` is `Gout` at row `512 t + y₀`, column `y₁`. -/
theorem outAt_apply (c : Dev nD) (t : Fin cfg0.N) (y : S512x256.Idx) (i : S4096x256.Idx)
    (hi0 : (i 0).val = 512 * t.val + (y 0).val) (hi1 : (i 1).val = (y 1).val) : outAt m c t y = Gout m c i := by
  unfold outAt
  split
  · rw [outFirst_eq]
    by_cases h : (y 0).val < 256
    · exact (canon_top (F := Ideal) _ _ y h).trans (top_at m c t t y h i hi0 hi1)
    · exact (canon_bot (F := Ideal) _ _ y (by omega)).trans (bot_at m c t t y (by omega) i hi0 hi1)
  · rw [outLater_eq, suppAt_eq]
    by_cases h : (y 0).val < 256
    · exact (canon_top (F := Ideal) _ _ y h).trans (top_at m c t t0_0 y h i hi0 hi1)
    · exact (canon_bot (F := Ideal) _ _ y (by omega)).trans (bot_at m c t t0_0 y (by omega) i hi0 hi1)

/-- What point `t` writes back is block `t` of `Gout`. -/
theorem flushed_eq (c : Dev nD) (t : Fin cfg0.N) :
    (dats m 0 c).flushed 4 t = ((cfg0.win 4).blk t).view.read (Elt Ideal) (Gout m c) := by
  show (cfg0.win 4).cut (grid0.coords t) ((dats m 0 c).after 4 t) = _
  rw [after4]
  funext y
  show outAt m c t y = Gout m c (((cfg0.win 4).blk t).view.emb y)
  refine outAt_apply m c t y _ ?_ ?_
  · show win0_4.index t 0 * 512 + 1 * (y 0).val = 512 * t.val + (y 0).val
    rw [(index4 t).1]; omega
  · show win0_4.index t 1 * 256 + 1 * (y 1).val = (y 1).val
    rw [(index4 t).2]; omega

/-- The eight blocks cover the result array: it ends holding `Gout`. -/
theorem final (c : Dev nD) : (dats m 0 c).arrAt 4 cfg0.N = Gout m c :=
  (dats m 0 c).arrAt_eq_of_cover 4 (Gout m c) (fun t _ => flushed_eq m c t) out_cover

/-- The run, read: the result array at `Gout` of the argument arrays, the arguments unchanged. -/
theorem run : θ_run defs (onTc (τ := τ) (main (F := Ideal))) ⟨m, fun _ => 0, ρ⟩ fun r => ∀ c : Dev nD,
      r.2.mem ((c.tc : Thread nD τ).loc main_v0) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 4).trans (final m c),
     ((h c).1 0).trans (((dats m 0 c).arrAt_in 0 rfl _).trans (A_eq m c 0)),
     ((h c).1 2).trans (((dats m 0 c).arrAt_in 2 rfl _).trans (A_eq m c 2)),
     ((h c).1 1).trans (((dats m 0 c).arrAt_in 1 rfl _).trans (A_eq m c 1))⟩) (run_main m ρ)

end Cert.KernelIdeal.Hand

end
-- ==== Proof.RefValue.lean ====
/-
  The reference's result, read at one entry, is the specification.

  The reference forms the support matrix X W by one product, multiplies it by the adjacency matrix A on the left by
  a second product, and takes the entrywise maximum with a zero splat. Read at entry (r, j): the outer product is
  the sum over `k` of `A (r, k)` times the support matrix at `(k, j)`, which is itself the sum over `l` of
  `X (k, l) * W (l, j)`; the maximum with the zero word is the maximum with zero.
-/
import proofs.«146879_g4337916969110_retrytranche1_687_8_alg».proof.Proof.Spec
import proofs.«146879_g4337916969110_retrytranche1_687_8_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The operand indices of the two products, by coordinates -/

/-- Outer product, left operand: entry (r, j) with summation variable `k` reads `A` at (r, k). -/
theorem outer_left (r : Fin 4096) (j : Fin 256) (k : Fin 4096) : lidx_main_v1 (ix2 r j) k = ix2 r k :=
  funext fun a => Fin.ext (by match a with | ⟨0, _⟩ => rfl | ⟨1, _⟩ => rfl)
/-- Outer product, right operand: it reads the support matrix at (k, j). -/
theorem outer_right (r : Fin 4096) (j : Fin 256) (k : Fin 4096) : ridx_main_v1 (ix2 r j) k = ix2 k j :=
  funext fun a => Fin.ext (by match a with | ⟨0, _⟩ => rfl | ⟨1, _⟩ => rfl)
/-- Inner product, left operand: entry (k, j) with summation variable `l` reads `X` at (k, l). -/
theorem inner_left (k : Fin 4096) (j : Fin 256) (l : Fin 256) : lidx_main_v0 (ix2 k j) l = ix2 k l :=
  funext fun a => Fin.ext (by match a with | ⟨0, _⟩ => rfl | ⟨1, _⟩ => rfl)
/-- Inner product, right operand: it reads `W` at (l, j). -/
theorem inner_right (k : Fin 4096) (j : Fin 256) (l : Fin 256) : ridx_main_v0 (ix2 k j) l = ix2 l j :=
  funext fun a => Fin.ext (by match a with | ⟨0, _⟩ => rfl | ⟨1, _⟩ => rfl)

/-! ## The result at an entry -/

/-- The last stage (the maximum with the zero splat) at entry (r, j) is the specification's: the larger of zero and the
    sum over `k` of `A (r, k)` times the sum over `l` of `X (k, l) * W (l, j)`. -/
theorem stage_apply (feat : FVec Ideal S4096x256 .f32) (adj : FVec Ideal S4096x4096 .f32)
    (w : FVec Ideal S256x256 .f32) (r : Fin 4096) (j : Fin 256) :
    val_main_v2 (F := Ideal) feat adj w (ix2 r j)
      = Cert.Spec.G (fun a b => feat (ix2 a b)) (fun a b => adj (ix2 a b)) (fun a b => w (ix2 a b)) r j := by
  rw [val_main_v2_apply, val_main_v1_apply, val_main_call0_v0_apply, val_main_call0_cst_apply]
  simp only [val_main_v0_apply, outer_left, outer_right, inner_left, inner_right, Ideal.maximumf_def, Ideal.ofBits_def,
    Ideal.ofBits_zero_f32]
  rfl

/-- The same for the term the reference's run states for its result: the two products and the maximum, composed. -/
theorem result_apply (feat : FVec Ideal S4096x256 .f32) (adj : FVec Ideal S4096x4096 .f32)
    (w : FVec Ideal S256x256 .f32) (r : Fin 4096) (j : Fin 256) :
    (maximumf (Host.dotGeneral dot_S4096x4096_S4096x256_S4096x256_1_0_0_1_n_n none adj (Host.dotGeneral dot_S4096x256_S256x256_S4096x256_1_0_0_1_n_n none feat w))
        (broadcastInDim S4096x256 ![] bcast_S_S4096x256 (constant (F := Ideal) S_ .f32 0x00000000#32)) :
          (⟨S4096x256, .f32⟩ : BufTy).Contents (Elt Ideal)) (ix2 r j)
      = Cert.Spec.G (fun a b => feat (ix2 a b)) (fun a b => adj (ix2 a b)) (fun a b => w (ix2 a b)) r j := by
  rw [val_main_v2_eq]
  exact stage_apply feat adj w r j

end Cert.ReferenceIdeal.RefValue

end
-- ==== Proof.lean ====
/-
  The kernel computes relu(adj · (features · weight)) in one region of eight grid points: the first point
  stores the support, features · weight, into a scratch that every point then reads; each point multiplies
  two 256-row blocks of the adjacency with the support, clips below at zero, and writes the 512 rows back.
  The reference computes the same two products and the same clip on the host.

  Frames: the kernel's region is run point by point (the scratch tracked at the support from the first
  point on; the adjacency, handed to the kernel through two input windows, held at two half shares), for
  the program as printed and for its idealization; the reference's frame is its run with the result dropped.
  The idealization rewrote nothing, so there is nothing to preserve. Value: at the ideal instance the
  kernel's result array ends at the function `Gout` — entry (r, j) the maximum of 0 and the sum over k of
  adj[r, k] times the sum over l of features[k, l] · weight[l, j] — and the reference's result read at an
  index is the same nested sum: the two matrix products and the clip are the same operations on the
  extended reals, in the same order, so no algebraic law and no finiteness is used.
-/
import proofs.«146879_g4337916969110_retrytranche1_687_8_alg».proof.Defs
import proofs.«146879_g4337916969110_retrytranche1_687_8_alg».proof.Proof.Gen.Kernel
import proofs.«146879_g4337916969110_retrytranche1_687_8_alg».proof.Proof.Gen.KernelIdeal
import proofs.«146879_g4337916969110_retrytranche1_687_8_alg».proof.Proof.Gen.ReferenceIdeal
import proofs.«146879_g4337916969110_retrytranche1_687_8_alg».proof.Proof.Gen.Pre_finite_inputs
import proofs.«146879_g4337916969110_retrytranche1_687_8_alg».proof.Proof.Gen.ReferenceIdeal.Run
import proofs.«146879_g4337916969110_retrytranche1_687_8_alg».proof.Proof.K.Frame
import proofs.«146879_g4337916969110_retrytranche1_687_8_alg».proof.Proof.KI.Value
import proofs.«146879_g4337916969110_retrytranche1_687_8_alg».proof.Proof.RefValue
import Idealize.ShloMosaic.Adequacy
import Idealize.ShloMosaic.Init

noncomputable section

namespace Cert.Proof

open Idealize.ShloMosaic Idealize.ShloMosaic.TcCoe Idealize.SL.Sem
open Idealize.ShloMosaic.ValueIdx

/-- The program as printed runs to the end and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at the clipped double product of the arguments, index by index. -/
theorem algebraic : Cert.algebraic_KernelIdeal_ReferenceIdeal := by
  intro m ρ m' ρ' _ hagree
  refine ⟨fun c => Cert.KernelIdeal.Hand.Gout m c, Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, (hagree c).1, (hagree c).2.1, (hagree c).2.2]
  funext i
  obtain ⟨a, b, rfl⟩ : ∃ (a : Fin 4096) (b : Fin 256), i = ix2 a b := ⟨i 0, i 1, eq_ix2 i⟩
  exact Cert.ReferenceIdeal.RefValue.result_apply _ _ _ a b

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
